-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S300000x128 : Shape := ⟨2, ![300000, 128]⟩
abbrev S600000 : Shape := ⟨1, ![600000]⟩
abbrev S300000 : Shape := ⟨1, ![300000]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S300000x128 : S_.BroadcastsInDim S300000x128 (![] : Fin 0 → Fin S300000x128.rank)
  reducesTo_S300000x128_S_d0_1 : S300000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : FVec F S600000x128 .f32) (main_arg2 : FVec F S300000x128 .f32) (main_arg3 : IVec S600000 32) (main_arg4 : IVec S300000 32) (main_arg5 : FVec F S384x128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S300000x128 .f32 := Host.absf main_arg2
  let main_cst_2 : FVec F S_ .f32 := constant S_ .f32 0x7F800000#32
  let main_v10 : FVec F S300000x128 .f32 := broadcastInDim S300000x128 ![] bcast_S_S300000x128 main_cst_2
  let main_v11 : IVec S300000x128 1 := cmpf .olt main_v9 main_v10
  let main_c_3 : IVec S_ 1 := constantI S_ 1 1#1
  let main_v12 : IVec S_ 1 := (fun x v => Host.reduce IntOp.andi x v reducesTo_S300000x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S600000x128 : Shape := ⟨2, ![600000, 128]⟩
abbrev S300000x128 : Shape := ⟨2, ![300000, 128]⟩
abbrev S600000 : Shape := ⟨1, ![600000]⟩
abbrev S300000 : Shape := ⟨1, ![300000]⟩
abbrev S384x128 : Shape := ⟨2, ![384, 128]⟩
abbrev S128 : Shape := ⟨1, ![128]⟩
abbrev S128x128 : Shape := ⟨2, ![128, 128]⟩
abbrev S_ : Shape := ⟨0, ![]⟩
abbrev S600000x1 : Shape := ⟨2, ![600000, 1]⟩
abbrev S100000 : Shape := ⟨1, ![100000]⟩
abbrev S100000x1 : Shape := ⟨2, ![100000, 1]⟩
abbrev S300000x1 : Shape := ⟨2, ![300000, 1]⟩
abbrev S2000x128 : Shape := ⟨2, ![2000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 47
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S300000x128, .f32⟩
  | .hbm, ⟨3, _⟩ => ⟨S600000, .i32⟩
  | .hbm, ⟨4, _⟩ => ⟨S300000, .i32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S100000x128, .f32⟩
  | .hbm, ⟨13, _⟩ => ⟨S600000x1, .i32⟩
  | .hbm, ⟨14, _⟩ => ⟨S100000x128, .f32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S100000, .f32⟩
  | .hbm, ⟨19, _⟩ => ⟨S600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S300000x1, .i32⟩
  | .hbm, ⟨30, _⟩ => ⟨S100000x128, .f32⟩
  | .hbm, ⟨31, _⟩ => ⟨S_, .f32⟩
  | .hbm, ⟨32, _⟩ => ⟨S300000, .f32⟩
  | .hbm, ⟨33, _⟩ => ⟨S_, .f32⟩
  | .hbm, ⟨34, _⟩ => ⟨S100000, .f32⟩
  | .hbm, ⟨35, _⟩ => ⟨S300000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S100000x128 : S_.BroadcastsInDim S100000x128 (![] : Fin 0 → Fin S100000x128.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S300000_S300000x1_0 : S300000.BroadcastsInDim S300000x1 (![0] : Fin 1 → Fin S300000x1.rank)
  bcast_S_S300000 : S_.BroadcastsInDim S300000 (![] : Fin 0 → Fin S300000.rank)
  slices_S384x128_S128x128_0_0 : S384x128.Slices ![0, 0] S128x128
  slices_S384x128_S128x128_128_0 : S384x128.Slices ![128, 0] S128x128
  slices_S384x128_S128x128_256_0 : S384x128.Slices ![256, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  scatter_S100000x128_S300000x1_S300000x128_1_0_0_1_wf : ScatterDims.WF S100000x128 S300000x1 S300000x128 [1] [0] [0] 1
  scatter_S100000_S300000x1_S300000_n_0_0_1_wf : ScatterDims.WF S100000 S300000x1 S300000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S100000x128.size a
  hwx0_11 : ∀ i : grid0.Coords, EltTy.bits .f32 = 32 ∨ (Rect.block (s := S100000x128) S2000x128.size (cc0_transform_11 i) (hinb0_11 i)).WholeWords (EltTy.packing .f32)

variable [Facts₀]

def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S300000x128 : Shape := ⟨2, ![300000, 128]⟩
abbrev S600000 : Shape := ⟨1, ![600000]⟩
abbrev S300000 : Shape := ⟨1, ![300000]⟩
abbrev S384x128 : Shape := ⟨2, ![384, 128]⟩
abbrev S128 : Shape := ⟨1, ![128]⟩
abbrev S128x128 : Shape := ⟨2, ![128, 128]⟩
abbrev S_ : Shape := ⟨0, ![]⟩
abbrev S600000x1 : Shape := ⟨2, ![600000, 1]⟩
abbrev S100000 : Shape := ⟨1, ![100000]⟩
abbrev S100000x1 : Shape := ⟨2, ![100000, 1]⟩
abbrev S300000x1 : Shape := ⟨2, ![300000, 1]⟩
abbrev S100000x384 : Shape := ⟨2, ![100000, 384]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S300000x128, .f32⟩
  | .hbm, ⟨3, _⟩ => ⟨S600000, .i32⟩
  | .hbm, ⟨4, _⟩ => ⟨S300000, .i32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S100000x128, .f32⟩
  | .hbm, ⟨13, _⟩ => ⟨S600000x1, .i32⟩
  | .hbm, ⟨14, _⟩ => ⟨S100000x128, .f32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S100000, .f32⟩
  | .hbm, ⟨19, _⟩ => ⟨S600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S300000x1, .i32⟩
  | .hbm, ⟨30, _⟩ => ⟨S100000x128, .f32⟩
  | .hbm, ⟨31, _⟩ => ⟨S_, .f32⟩
  | .hbm, ⟨32, _⟩ => ⟨S300000, .f32⟩
  | .hbm, ⟨33, _⟩ => ⟨S_, .f32⟩
  | .hbm, ⟨34, _⟩ => ⟨S100000, .f32⟩
  | .hbm, ⟨35, _⟩ => ⟨S300000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S100000x384, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000, .f32⟩
  | .hbm, ⟨57, _⟩ => ⟨S100000x1, .f32⟩
  | .hbm, ⟨58, _⟩ => ⟨S_, .f32⟩
  | .hbm, ⟨59, _⟩ => ⟨S100000x1, .f32⟩
  | .hbm, ⟨60, _⟩ => ⟨S100000x1, .f32⟩
  | .hbm, ⟨61, _⟩ => ⟨S_, .i32⟩
  | .hbm, ⟨62, _⟩ => ⟨S_, .f32⟩
  | .hbm, ⟨63, _⟩ => ⟨S100000, .f32⟩
  | .hbm, ⟨64, _⟩ => ⟨S100000x1, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S100000, .f32⟩
  | .hbm, ⟨76, _⟩ => ⟨S100000x1, .f32⟩
  | .hbm, ⟨77, _⟩ => ⟨S100000x1, .f32⟩
  | .hbm, ⟨78, _⟩ => ⟨S100000x1, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x1, .f32⟩
  | .hbm, ⟨89, _⟩ => ⟨S100000x1, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_c : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_cst_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_cst_1 : Ref sig .tc := ⟨.hbm, 72, rfl⟩
abbrev main_call1_v8 : Ref sig .tc := ⟨.hbm, 73, rfl⟩
abbrev main_call1_cst_2 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_cst_3 : Ref sig .tc := ⟨.hbm, 79, rfl⟩
abbrev main_call1_v13 : Ref sig .tc := ⟨.hbm, 80, rfl⟩
abbrev main_call1_cst_4 : Ref sig .tc := ⟨.hbm, 81, rfl⟩
abbrev main_call1_call0_v0 : Ref sig .tc := ⟨.hbm, 82, rfl⟩
abbrev main_call1_call0_v1 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_9 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S300000_S300000x1_0 : S300000.BroadcastsInDim S300000x1 (![0] : Fin 1 → Fin S300000x1.rank)
  bcast_S_S300000 : S_.BroadcastsInDim S300000 (![] : Fin 0 → Fin S300000.rank)
  concatenates_S100000x128_S100000x128_S100000x128_S100000x384_d1 : Shape.Concatenates [S100000x128, S100000x128, S100000x128] S100000x384 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  scatter_S100000x128_S300000x1_S300000x128_1_0_0_1_wf : ScatterDims.WF S100000x128 S300000x1 S300000x128 [1] [0] [0] 1
  scatter_S100000_S300000x1_S300000_n_0_0_1_wf : ScatterDims.WF S100000 S300000x1 S300000 [] [0] [0] 1
  dot_S100000x384_S384x128_S100000x128_1_0_0_1_n_n_wf : DotDims.WF S100000x384 S384x128 S100000x128 [1] [0] [0] [1] [] []
  dot_S100000x128_S128x128_S100000x128_1_0_0_1_n_n_wf : DotDims.WF S100000x128 S128x128 S100000x128 [1] [0] [0] [1] [] []

variable [Facts₀]

def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The node update as mathematics, one node (one row) at a time, on the extended reals.

  A node has a row of 128 features; two further rows of 128 come from the means of its incoming edges' attributes.
  The three rows pass through a first linear layer — written here in its split form, one 128 × 128 matrix per row,
  the three products added in order, then the bias — and a ReLU; a second linear layer; a layer normalisation (the
  mean of the 128 entries subtracted, the result scaled by the reciprocal square root of the mean square deviation plus
  a small constant, then by a per-column gain, plus a per-column shift); and the node's own features are added back.
  The one law needed beside that is that a sum over 384 consecutive positions is the sum over its three stretches of
  128: addition of extended reals is commutative and associative, so the law needs no finiteness.
-/
import Idealize.ShloMosaic.PureOps.Ideal
import Idealize.ShloMosaic.Lib.ValueIdx

open scoped BigOperators

noncomputable section

namespace Cert.NodeUpdate

open Idealize.ShloMosaic Idealize.ShloMosaic.ValueIdx

/-- A sum over 384 consecutive positions is the sum over its three stretches of 128. -/
theorem sum_three_stretches {M : Type} [AddCommMonoid M] (f : Fin 384 → M) :
    ∑ l : Fin 384, f l
      = (∑ c : Fin 128, f ⟨c.val, by omega⟩ + ∑ c : Fin 128, f ⟨128 + c.val, by omega⟩)
        + ∑ c : Fin 128, f ⟨256 + c.val, by omega⟩ := by
  have h1 := Fin.sum_univ_add (a := 256) (b := 128) (f : Fin (256 + 128) → M)
  have h2 := Fin.sum_univ_add (a := 128) (b := 128) (fun i : Fin (128 + 128) => f (Fin.castAdd 128 i))
  exact (h1.trans (congrArg (· + _) h2))

/-- Row `r` of a matrix with 128 columns. -/
def row {n : ℕ} (X : (⟨2, ![n, 128]⟩ : Shape).Idx → EReal) (r : Fin n) : Fin 128 → EReal := fun c => X (ix2 r c)

/-- A 128 × 128 matrix by its coordinates. -/
def mat (W : (⟨2, ![128, 128]⟩ : Shape).Idx → EReal) : Fin 128 → Fin 128 → EReal := fun a b => W (ix2 a b)

/-- A vector of 128 entries by its coordinate. -/
def vec (v : (⟨1, ![128]⟩ : Shape).Idx → EReal) : Fin 128 → EReal := fun a => v (ix1 a)

/-- The three blocks of 128 rows of a 384 × 128 matrix. -/
def top (W : (⟨2, ![384, 128]⟩ : Shape).Idx → EReal) : Fin 128 → Fin 128 → EReal :=
  fun a b => W (ix2 (⟨a.val, by omega⟩ : Fin 384) b)
@[inherit_doc top]
def mid (W : (⟨2, ![384, 128]⟩ : Shape).Idx → EReal) : Fin 128 → Fin 128 → EReal :=
  fun a b => W (ix2 (⟨128 + a.val, by omega⟩ : Fin 384) b)
@[inherit_doc top]
def bot (W : (⟨2, ![384, 128]⟩ : Shape).Idx → EReal) : Fin 128 → Fin 128 → EReal :=
  fun a b => W (ix2 (⟨256 + a.val, by omega⟩ : Fin 384) b)

/-- The first layer after its ReLU (the maximum with `z`, the zero), at hidden unit `k`: the three rows against the
    three blocks of the weight matrix, added in order, plus the bias. -/
def hiddenUnit (z : EReal) (xr mr wr : Fin 128 → EReal) (A B C : Fin 128 → Fin 128 → EReal) (b1 : Fin 128 → EReal)
    (k : Fin 128) : EReal :=
  max (((∑ c, xr c * A c k + ∑ c, mr c * B c k) + ∑ c, wr c * C c k) + b1 k) z

/-- The second linear layer at output unit `q`. -/
def second (a : Fin 128 → EReal) (W2 : Fin 128 → Fin 128 → EReal) (b2 : Fin 128 → EReal) (q : Fin 128) : EReal :=
  ∑ k, a k * W2 k q + b2 q

/-- An entry minus the mean of the 128 entries (their sum divided by `n`). -/
def centred (n : EReal) (h : Fin 128 → EReal) (q : Fin 128) : EReal := h q - Ideal.div (∑ j, h j) n

/-- The layer normalisation at column `q`: the centred entry times the reciprocal square root of the mean square
    deviation plus `eps`, times the gain, plus the shift. -/
def normed (n eps : EReal) (h g bt : Fin 128 → EReal) (q : Fin 128) : EReal :=
  centred n h q * Ideal.rsqrt (Ideal.div (∑ j, centred n h j * centred n h j) n + eps) * g q + bt q

/-- The updated node at column `q`: its own feature plus the normalised second layer. -/
def node (z n eps : EReal) (xr mr wr : Fin 128 → EReal) (A B C : Fin 128 → Fin 128 → EReal) (b1 : Fin 128 → EReal)
    (W2 : Fin 128 → Fin 128 → EReal) (b2 g bt : Fin 128 → EReal) (q : Fin 128) : EReal :=
  xr q + normed n eps (second (hiddenUnit z xr mr wr A B C b1) W2 b2) g bt q

/-- The whole array of updated nodes: row `r` from row `r` of the features and of the two edge means. -/
def nodes (z n eps : EReal) (x me wo : (⟨2, ![100000, 128]⟩ : Shape).Idx → EReal)
    (A B C : Fin 128 → Fin 128 → EReal) (b1 : Fin 128 → EReal) (W2 : Fin 128 → Fin 128 → EReal) (b2 g bt : Fin 128 → EReal) :
    (⟨2, ![100000, 128]⟩ : Shape).Idx → EReal := fun i =>
  node z n eps (row x ⟨(i 0).val, idx2_lt0 i⟩) (row me ⟨(i 0).val, idx2_lt0 i⟩) (row wo ⟨(i 0).val, idx2_lt0 i⟩)
    A B C b1 W2 b2 g bt ⟨(i 1).val, idx2_lt1 i⟩

theorem nodes_apply (z n eps : EReal) (x me wo : (⟨2, ![100000, 128]⟩ : Shape).Idx → EReal)
    (A B C : Fin 128 → Fin 128 → EReal) (b1 : Fin 128 → EReal) (W2 : Fin 128 → Fin 128 → EReal) (b2 g bt : Fin 128 → EReal)
    (r : Fin 100000) (q : Fin 128) :
    nodes z n eps x me wo A B C b1 W2 b2 g bt (ix2 r q) = node z n eps (row x r) (row me r) (row wo r) A B C b1 W2 b2 g bt q :=
  rfl

end Cert.NodeUpdate

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPayload.lean ====
/-
  One block of the kernel's output, entry by entry, as the node update of Spec.lean.

  At a grid point the body holds a block of 2000 rows of the node features and of the two edge means, the three
  128 × 128 blocks of the first weight matrix, the second weight matrix and the four vectors. Entry (p, q) of what it
  stores is the node update of row p of the three row blocks: each matrix product into a zero accumulator is the sum of
  products over the 128 contracted positions, a change of float format is the identity on the extended reals, the two
  sums along a row are sums over the row's 128 entries, and the one-column casts and broadcasts around them read the
  row's sum back at every column.
-/
import proofs.«117455_j29137058136345_2_alg».proof.Proof.Gen.KernelIdeal.Value
import proofs.«117455_j29137058136345_2_alg».proof.Proof.Spec
import proofs.«117455_j29137058136345_2_alg».proof.Proof.LibPlainMatmul
import proofs.«117455_j29137058136345_2_alg».proof.Proof.LibLaneSum
import proofs.«117455_j29137058136345_2_alg».proof.Proof.LibColumnCast
import proofs.«117455_j29137058136345_2_alg».proof.Proof.LibColumnBroadcast
import Idealize.ShloMosaic.Lib.ValueLayout
import Idealize.ShloMosaic.Lib.Pipeline.Value

open scoped BigOperators

noncomputable section

namespace Cert.KernelIdeal.Payload

open Cert.KernelIdeal Cert.KernelIdeal.Gen Cert.KernelIdeal.Value Cert.NodeUpdate
open Idealize.ShloMosaic Idealize.ShloMosaic.ValueIdx

/-- A vector of 128 cast to one row and repeated on 2000 rows reads its entry `q` at `(p, q)`. -/
theorem bias_apply (v : Vec Ideal S128 .f32) (p : Fin 2000) (q : Fin 128) :
    broadcastTo S2000x128 (shapeCast S1x128 v shapeCasts_S128_S1x128) broadcasts_S1x128_S2000x128 (ix2 p q) = v (ix1 q) :=
  (broadcastTo_1b_ab_apply _ _ p q).trans (shapeCast_a_1a_apply v _ (0 : Fin 1) q)

/-- The product of a 2000 × 128 block by a 128 × 128 matrix, both narrowed to bf16 on the way in, into the zero
    accumulator: at `(p, q)` the sum over the contracted position `c` of `A (p, c) · B (c, q)`. -/
theorem mm_apply (A : FVec Ideal S2000x128 .f32) (B : FVec Ideal S128x128 .f32) (p : Fin 2000) (q : Fin 128) :
    matmul dot_S2000x128_S128x128_S2000x128_1_0_0_1_n_n none (truncf .bf16 A bitsLt_bf16_f32) (truncf .bf16 B bitsLt_bf16_f32)
      (constant S2000x128 .f32 0x00000000#32) (ix2 p q) = ∑ c : Fin 128, A (ix2 p c) * B (ix2 c q) :=
  (matmul_plain_zero_apply _ none (truncf .bf16 A bitsLt_bf16_f32) (truncf .bf16 B bitsLt_bf16_f32) p q).trans
    (Finset.sum_congr rfl fun _ _ => rfl)

/-- The second layer's output at `(p, q)`: both layers of row `p`. -/
theorem pay2_apply (P0 P1 P2 : Vec Ideal S2000x128 .f32) (P3 P4 P5 : Vec Ideal S128x128 .f32) (P6 : Vec Ideal S128 .f32)
    (P7 : Vec Ideal S128x128 .f32) (P8 : Vec Ideal S128 .f32) (p : Fin 2000) (q : Fin 128) :
    k0_pay2 P0 P1 P2 P3 P4 P5 P6 P7 P8 (ix2 p q)
      = second (hiddenUnit (Ideal.ofBits .f32 0x00000000#32) (row P0 p) (row P1 p) (row P2 p) (mat P3) (mat P4) (mat P5) (vec P6))
          (mat P7) (vec P8) q := by
  unfold k0_pay2 second hiddenUnit row mat vec
  simp only [addf_apply, mm_apply, maximumf_apply, broadcast_apply, shapeCast_self]
  rw [bias_apply P8 p q]
  refine congrArg (· + P8 (ix1 q)) (Finset.sum_congr rfl fun k _ => ?_)
  rw [bias_apply P6 p k]
  rfl

/-- The sums of the rows of a 2000 × 128 block, as the body takes them. -/
def rowSums (H : FVec Ideal S2000x128 .f32) : FVec Ideal S2000 .f32 :=
  multiReduction .add [1] S2000 H 0x00000000#32 reduces_S2000x128_S2000 (.inl rfl) rfl

/-- A block minus its row means, as the body takes it: the row sums as one column, divided by 128, repeated over
    the columns and subtracted. -/
def dev (H : FVec Ideal S2000x128 .f32) : FVec Ideal S2000x128 .f32 :=
  subf H (broadcastTo S2000x128 (divf (shapeCast S2000x1 (rowSums H) shapeCasts_S2000_S2000x1)
    (broadcast S2000x1 (Scalar.ofBits .f32 0x43000000#32))) broadcasts_S2000x1_S2000x128)

theorem rowSums_apply (H : FVec Ideal S2000x128 .f32) (p : Fin 2000) : rowSums H (ix1 p) = ∑ c : Fin 128, H (ix2 p c) :=
  multiReduction_add_rows_apply H 0x00000000#32 reduces_S2000x128_S2000 (.inl rfl) rfl p

theorem dev_apply (H : FVec Ideal S2000x128 .f32) (p : Fin 2000) (c : Fin 128) :
    dev H (ix2 p c) = H (ix2 p c) - Ideal.div (∑ j : Fin 128, H (ix2 p j)) (Ideal.ofBits .f32 0x43000000#32) := by
  unfold dev
  rw [subf_apply, broadcastTo_a1_ab_apply, divf_apply, shapeCast_a_a1_apply, rowSums_apply]
  rfl

theorem ix11_0_apply (p : Fin 2000) (q : Fin 128) : ix11_0 (ix2 p q) = ix2 p q :=
  funext fun a => by match a with | ⟨0, _⟩ => rfl | ⟨1, _⟩ => rfl
theorem ix11_1_apply (p : Fin 2000) (q : Fin 128) : ix11_1 (ix2 p q) = ix2 p q :=
  funext fun a => by match a with | ⟨0, _⟩ => rfl | ⟨1, _⟩ => rfl
theorem ix11_2_apply (p : Fin 2000) (q : Fin 128) : ix11_2 (ix2 p q) = ix1 p :=
  funext fun a => by match a with | ⟨0, _⟩ => rfl
theorem ix11_3_apply (p : Fin 2000) (q : Fin 128) : ix11_3 (ix2 p q) = ix1 p :=
  funext fun a => by match a with | ⟨0, _⟩ => rfl
theorem ix11_4_apply (p : Fin 2000) (q : Fin 128) : ix11_4 (ix2 p q) = ix1 q :=
  funext fun a => by match a with | ⟨0, _⟩ => rfl
theorem ix11_5_apply (p : Fin 2000) (q : Fin 128) : ix11_5 (ix2 p q) = ix1 q :=
  funext fun a => by match a with | ⟨0, _⟩ => rfl

/-- The stored block at `(p, q)`, with the second layer's output, its row sums and the row sums of its squared
    deviations named. -/
theorem block_named (P0 P1 P2 : Vec Ideal S2000x128 .f32) (P3 P4 P5 : Vec Ideal S128x128 .f32) (P6 : Vec Ideal S128 .f32)
    (P7 : Vec Ideal S128x128 .f32) (P8 P9 P10 : Vec Ideal S128 .f32) (p : Fin 2000) (q : Fin 128) :
    E11 P0 P1 P2 P3 P4 P5 P6 P7 P8 P9 P10 (ix2 p q)
      = P0 (ix2 p q)
        + ((k0_pay2 P0 P1 P2 P3 P4 P5 P6 P7 P8 (ix2 p q)
              - Ideal.div (rowSums (k0_pay2 P0 P1 P2 P3 P4 P5 P6 P7 P8) (ix1 p)) (Ideal.ofBits .f32 0x43000000#32))
            * Ideal.rsqrt (Ideal.div (rowSums (mulf (dev (k0_pay2 P0 P1 P2 P3 P4 P5 P6 P7 P8)) (dev (k0_pay2 P0 P1 P2 P3 P4 P5 P6 P7 P8))) (ix1 p))
                (Ideal.ofBits .f32 0x43000000#32) + Ideal.ofBits .f32 0x3727C5AC#32)
            * P9 (ix1 q) + P10 (ix1 q)) := by
  dsimp only [E11]
  rw [ix11_0_apply, ix11_1_apply, ix11_2_apply, ix11_3_apply, ix11_4_apply, ix11_5_apply]
  rfl

/-- The stored block at `(p, q)` is the node update of row `p` of the three row blocks. -/
theorem block_apply (P0 P1 P2 : Vec Ideal S2000x128 .f32) (P3 P4 P5 : Vec Ideal S128x128 .f32) (P6 : Vec Ideal S128 .f32)
    (P7 : Vec Ideal S128x128 .f32) (P8 P9 P10 : Vec Ideal S128 .f32) (p : Fin 2000) (q : Fin 128) :
    E11 P0 P1 P2 P3 P4 P5 P6 P7 P8 P9 P10 (ix2 p q)
      = node (Ideal.ofBits .f32 0x00000000#32) (Ideal.ofBits .f32 0x43000000#32) (Ideal.ofBits .f32 0x3727C5AC#32)
          (row P0 p) (row P1 p) (row P2 p) (mat P3) (mat P4) (mat P5) (vec P6) (mat P7) (vec P8) (vec P9) (vec P10) q := by
  rw [block_named, rowSums_apply, rowSums_apply]
  simp only [mulf_apply, dev_apply, pay2_apply]
  rfl

end Cert.KernelIdeal.Payload

end
-- ==== Proof.KernelArray.lean ====
/-
  From the blocks the grid points write to the whole output array.

  The grid has 50 points; point t stages rows 2000·t … 2000·t + 1999 of the node features and of the two edge means,
  the weight matrices and the vectors whole, and writes back rows 2000·t … 2000·t + 1999 of the output. What it writes
  at row p of its block is the node update of row 2000·t + p of the arrays as the region finds them, so every block is a
  block of one function of those arrays; the 50 blocks cover the 100000 rows (row r lies in block r / 2000), and the
  output array ends as that function.
-/
import proofs.«117455_j29137058136345_2_alg».proof.Proof.KernelPayload

noncomputable section

namespace Cert.KernelIdeal.Blocks

open Cert.KernelIdeal Cert.KernelIdeal.Gen Cert.KernelIdeal.Value Cert.KernelIdeal.Payload Cert.NodeUpdate
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row windows and the output window move with the point along the
    rows; every other window stays at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 1) = 0
    ∧ win0_10.index t (0 : Fin 1) = 0
    ∧ win0_11.index t (0 : Fin 2) = t.val ∧ win0_11.index t (1 : Fin 2) = 0 :=
  (by decide +kernel : ∀ t : Fin grid0.N, _)

theorem point_lt (t : Fin cfg0.N) : t.val < 50 := by
  have h := t.isLt
  have hN : cfg0.N = 50 := N_0
  omega

/-- The array row under row `p` of point `t`'s block. -/
def rowOf (t : Fin cfg0.N) (p : Fin 2000) : Fin 100000 := ⟨t.val * 2000 + p.val, by have := point_lt t; have := p.isLt; omega⟩

/-- Row `p` of point `t`'s block of the node features is row `2000·t + p` of the array. -/
theorem row_blk0 (c : Dev nD) (t : Fin cfg0.N) (p : Fin 2000) :
    row (iblk m c 0 t) p = row (V m c main_arg0 : S100000x128.Idx → EReal) (rowOf t p) := by
  obtain ⟨e0, e1, -⟩ := idx_facts t
  funext q
  show V m c main_arg0 (((cfg0.win 0).blk t).view.emb (ix2 p q)) = V m c main_arg0 (ix2 (rowOf t p) q)
  refine congrArg (V m c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * q.val = q.val; omega

theorem row_blk1 (c : Dev nD) (t : Fin cfg0.N) (p : Fin 2000) :
    row (iblk m c 1 t) p = row (V m c main_v11 : S100000x128.Idx → EReal) (rowOf t p) := by
  obtain ⟨-, -, e0, e1, -⟩ := idx_facts t
  funext q
  show V m c main_v11 (((cfg0.win 1).blk t).view.emb (ix2 p q)) = V m c main_v11 (ix2 (rowOf t p) q)
  refine congrArg (V m c main_v11) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * q.val = q.val; omega

theorem row_blk2 (c : Dev nD) (t : Fin cfg0.N) (p : Fin 2000) :
    row (iblk m c 2 t) p = row (V m c main_v23 : S100000x128.Idx → EReal) (rowOf t p) := by
  obtain ⟨-, -, -, -, e0, e1, -⟩ := idx_facts t
  funext q
  show V m c main_v23 (((cfg0.win 2).blk t).view.emb (ix2 p q)) = V m c main_v23 (ix2 (rowOf t p) q)
  refine congrArg (V m c main_v23) (funext fun a => Fin.ext ?_)
  match a with
  | ⟨0, _⟩ => show win0_2.index t (0 : Fin 2) * 2000 + 1 * p.val = t.val * 2000 + p.val; omega
  | ⟨1, _⟩ => show win0_2.index t (1 : Fin 2) * 128 + 1 * q.val = q.val; omega

/-- Window 3's one block is its whole array. -/
theorem mat_blk3 (c : Dev nD) (t : Fin cfg0.N) : mat (iblk m c 3 t) = mat (V m c main_v24 : S128x128.Idx → EReal) := by
  have e0 : win0_3.index t (0 : Fin 2) = 0 := (idx_facts t).2.2.2.2.2.2.1
  have e1 : win0_3.index t (1 : Fin 2) = 0 := (idx_facts t).2.2.2.2.2.2.2.1
  funext a b
  show V m c main_v24 (((cfg0.win 3).blk t).view.emb (ix2 a b)) = V m c main_v24 (ix2 a b)
  refine congrArg (V m c main_v24) (funext fun ax => Fin.ext ?_)
  match ax with
  | ⟨0, _⟩ => show win0_3.index t (0 : Fin 2) * 128 + 1 * a.val = a.val; omega
  | ⟨1, _⟩ => show win0_3.index t (1 : Fin 2) * 128 + 1 * b.val = b.val; omega

/-- Window 4's one block is its whole array. -/
theorem mat_blk4 (c : Dev nD) (t : Fin cfg0.N) : mat (iblk m c 4 t) = mat (V m c main_v25 : S128x128.Idx → EReal) := by
  have e0 : win0_4.index t (0 : Fin 2) = 0 := (idx_facts t).2.2.2.2.2.2.2.2.1
  have e1 : win0_4.index t (1 : Fin 2) = 0 := (idx_facts t).2.2.2.2.2.2.2.2.2.1
  funext a b
  show V m c main_v25 (((cfg0.win 4).blk t).view.emb (ix2 a b)) = V m c main_v25 (ix2 a b)
  refine congrArg (V m c main_v25) (funext fun ax => Fin.ext ?_)
  match ax with
  | ⟨0, _⟩ => show win0_4.index t (0 : Fin 2) * 128 + 1 * a.val = a.val; omega
  | ⟨1, _⟩ => show win0_4.index t (1 : Fin 2) * 128 + 1 * b.val = b.val; omega

/-- Window 5's one block is its whole array. -/
theorem mat_blk5 (c : Dev nD) (t : Fin cfg0.N) : mat (iblk m c 5 t) = mat (V m c main_v26 : S128x128.Idx → EReal) := by
  have e0 : win0_5.index t (0 : Fin 2) = 0 := (idx_facts t).2.2.2.2.2.2.2.2.2.2.1
  have e1 : win0_5.index t (1 : Fin 2) = 0 := (idx_facts t).2.2.2.2.2.2.2.2.2.2.2.1
  funext a b
  show V m c main_v26 (((cfg0.win 5).blk t).view.emb (ix2 a b)) = V m c main_v26 (ix2 a b)
  refine congrArg (V m c main_v26) (funext fun ax => Fin.ext ?_)
  match ax with
  | ⟨0, _⟩ => show win0_5.index t (0 : Fin 2) * 128 + 1 * a.val = a.val; omega
  | ⟨1, _⟩ => show win0_5.index t (1 : Fin 2) * 128 + 1 * b.val = b.val; omega

/-- Window 7's one block is its whole array. -/
theorem mat_blk7 (c : Dev nD) (t : Fin cfg0.N) : mat (iblk m c 7 t) = mat (V m c main_arg7 : S128x128.Idx → EReal) := by
  have e0 : win0_7.index t (0 : Fin 2) = 0 := (idx_facts t).2.2.2.2.2.2.2.2.2.2.2.2.2.1
  have e1 : win0_7.index t (1 : Fin 2) = 0 := (idx_facts t).2.2.2.2.2.2.2.2.2.2.2.2.2.2.1
  funext a b
  show V m c main_arg7 (((cfg0.win 7).blk t).view.emb (ix2 a b)) = V m c main_arg7 (ix2 a b)
  refine congrArg (V m c main_arg7) (funext fun ax => Fin.ext ?_)
  match ax with
  | ⟨0, _⟩ => show win0_7.index t (0 : Fin 2) * 128 + 1 * a.val = a.val; omega
  | ⟨1, _⟩ => show win0_7.index t (1 : Fin 2) * 128 + 1 * b.val = b.val; omega

/-- Window 6's one block is its whole vector. -/
theorem vec_blk6 (c : Dev nD) (t : Fin cfg0.N) : vec (iblk m c 6 t) = vec (V m c main_arg6 : S128.Idx → EReal) := by
  have e0 : win0_6.index t (0 : Fin 1) = 0 := (idx_facts t).2.2.2.2.2.2.2.2.2.2.2.2.1
  funext a
  show V m c main_arg6 (((cfg0.win 6).blk t).view.emb (ix1 a)) = V m c main_arg6 (ix1 a)
  refine congrArg (V m c main_arg6) (funext fun ax => Fin.ext ?_)
  match ax with
  | ⟨0, _⟩ => show win0_6.index t (0 : Fin 1) * 128 + 1 * a.val = a.val; omega

/-- Window 8's one block is its whole vector. -/
theorem vec_blk8 (c : Dev nD) (t : Fin cfg0.N) : vec (iblk m c 8 t) = vec (V m c main_arg8 : S128.Idx → EReal) := by
  have e0 : win0_8.index t (0 : Fin 1) = 0 := (idx_facts t).2.2.2.2.2.2.2.2.2.2.2.2.2.2.2.1
  funext a
  show V m c main_arg8 (((cfg0.win 8).blk t).view.emb (ix1 a)) = V m c main_arg8 (ix1 a)
  refine congrArg (V m c main_arg8) (funext fun ax => Fin.ext ?_)
  match ax with
  | ⟨0, _⟩ => show win0_8.index t (0 : Fin 1) * 128 + 1 * a.val = a.val; omega

/-- Window 9's one block is its whole vector. -/
theorem vec_blk9 (c : Dev nD) (t : Fin cfg0.N) : vec (iblk m c 9 t) = vec (V m c main_arg9 : S128.Idx → EReal) := by
  have e0 : win0_9.index t (0 : Fin 1) = 0 := (idx_facts t).2.2.2.2.2.2.2.2.2.2.2.2.2.2.2.2.1
  funext a
  show V m c main_arg9 (((cfg0.win 9).blk t).view.emb (ix1 a)) = V m c main_arg9 (ix1 a)
  refine congrArg (V m c main_arg9) (funext fun ax => Fin.ext ?_)
  match ax with
  | ⟨0, _⟩ => show win0_9.index t (0 : Fin 1) * 128 + 1 * a.val = a.val; omega

/-- Window 10's one block is its whole vector. -/
theorem vec_blk10 (c : Dev nD) (t : Fin cfg0.N) : vec (iblk m c 10 t) = vec (V m c main_arg10 : S128.Idx → EReal) := by
  have e0 : win0_10.index t (0 : Fin 1) = 0 := (idx_facts t).2.2.2.2.2.2.2.2.2.2.2.2.2.2.2.2.2.1
  funext a
  show V m c main_arg10 (((cfg0.win 10).blk t).view.emb (ix1 a)) = V m c main_arg10 (ix1 a)
  refine congrArg (V m c main_arg10) (funext fun ax => Fin.ext ?_)
  match ax with
  | ⟨0, _⟩ => show win0_10.index t (0 : Fin 1) * 128 + 1 * a.val = a.val; omega

/-- The output array as one function of the arrays the region finds: row by row the node update. -/
def updated (c : Dev nD) : S100000x128.Idx → EReal :=
  nodes (Ideal.ofBits .f32 0x00000000#32) (Ideal.ofBits .f32 0x43000000#32) (Ideal.ofBits .f32 0x3727C5AC#32)
    (V m c main_arg0 : S100000x128.Idx → EReal) (V m c main_v11 : S100000x128.Idx → EReal) (V m c main_v23 : S100000x128.Idx → EReal)
    (mat (V m c main_v24 : S128x128.Idx → EReal)) (mat (V m c main_v25 : S128x128.Idx → EReal)) (mat (V m c main_v26 : S128x128.Idx → EReal))
    (vec (V m c main_arg6 : S128.Idx → EReal)) (mat (V m c main_arg7 : S128x128.Idx → EReal)) (vec (V m c main_arg8 : S128.Idx → EReal))
    (vec (V m c main_arg9 : S128.Idx → EReal)) (vec (V m c main_arg10 : S128.Idx → EReal))

/-- What the body leaves in the output's staging buffer, for any blocks: at `(p, q)` the node update of row `p`. -/
theorem out_apply (x0 x1 x2 : Vec Ideal S2000x128 .f32) (x3 x4 x5 : Vec Ideal S128x128 .f32) (x6 : Vec Ideal S128 .f32)
    (x7 : Vec Ideal S128x128 .f32) (x8 x9 x10 : Vec Ideal S128 .f32) (p : Fin 2000) (q : Fin 128) :
    out0_11 x0 x1 x2 x3 x4 x5 x6 x7 x8 x9 x10 (ix2 p q)
      = node (Ideal.ofBits .f32 0x00000000#32) (Ideal.ofBits .f32 0x43000000#32) (Ideal.ofBits .f32 0x3727C5AC#32)
          (row x0 p) (row x1 p) (row x2 p) (mat x3) (mat x4) (mat x5) (vec x6) (mat x7) (vec x8) (vec x9) (vec x10) q := by
  unfold out0_11
  simp only [View.ld_unit_zero (S := S2000x128) hz2, View.ld_unit_zero (S := S128x128) hz2, View.ld_unit_zero (S := S128) hz1]
  rw [canon11_eq]
  exact block_apply x0 x1 x2 x3 x4 x5 x6 x7 x8 x9 x10 p q

/-- The array index under `(p, q)` of point `t`'s output block. -/
theorem emb_out (t : Fin cfg0.N) (p : Fin 2000) (q : Fin 128) :
    ((cfg0.win 11).blk t).view.emb (ix2 p q) = ix2 (rowOf t p) q := by
  have e0 : win0_11.index t (0 : Fin 2) = t.val := (idx_facts t).2.2.2.2.2.2.2.2.2.2.2.2.2.2.2.2.2.2.1
  have e1 : win0_11.index t (1 : Fin 2) = 0 := (idx_facts t).2.2.2.2.2.2.2.2.2.2.2.2.2.2.2.2.2.2.2
  funext a; apply Fin.ext
  match a with
  | ⟨0, _⟩ => show win0_11.index t (0 : Fin 2) * 2000 + 1 * p.val = t.val * 2000 + p.val; omega
  | ⟨1, _⟩ => show win0_11.index t (1 : Fin 2) * 128 + 1 * q.val = q.val; omega

/-- What point `t` writes back is block `t` of `updated`. -/
theorem flushed_eq (c : Dev nD) (t : Fin cfg0.N) :
    (dats m 0 c).flushed 11 t = ((cfg0.win 11).blk t).view.read (Elt Ideal) (updated m c) := by
  rw [Value.flushed11]
  funext j
  obtain ⟨p, q, rfl⟩ : ∃ (p : Fin 2000) (q : Fin 128), j = ix2 p q := ⟨j 0, j 1, eq_ix2 j⟩
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p q)
    = updated m c (((cfg0.win 11).blk t).view.emb (ix2 p q))
  refine (out_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) p q).trans ?_
  rw [emb_out t p q, row_blk0 m c t p, row_blk1 m c t p, row_blk2 m c t p, mat_blk3 m c t, mat_blk4 m c t, mat_blk5 m c t,
    vec_blk6 m c t, mat_blk7 m c t, vec_blk8 m c t, vec_blk9 m c t, vec_blk10 m c t]
  rfl

/-- An index of the output array is in point `t`'s block iff each coordinate is in the block's range on its axis. -/
theorem mem_blk (t : Fin cfg0.N) (i : S100000x128.Idx) :
    i ∈ ((cfg0.win 11).blk t).view.set ↔ ∀ a : Fin 2, win0_11.index t a * S2000x128.size a ≤ (i a).val
      ∧ (i a).val < win0_11.index t a * S2000x128.size a + S2000x128.size a := by
  show i ∈ ((View.whole main_v27).slice (win0_11.rect t)).set ↔ _
  rw [View.set_slice_whole, Rect.mem_set_unit]
  exact Iff.rfl

/-- Every row lies in the block of the point `row / 2000`. -/
theorem covered (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  have hN : cfg0.N = 50 := N_0
  let t : Fin cfg0.N := ⟨(i 0).val / 2000, by omega⟩
  have ht : t.val = (i 0).val / 2000 := rfl
  obtain ⟨-, -, -, -, -, -, -, -, -, -, -, -, -, -, -, -, -, -, e0, e1⟩ := idx_facts t
  refine ⟨t, flush0_11 t, ?_⟩
  rw [mem_blk]
  intro a
  match a with
  | ⟨0, _⟩ =>
    show win0_11.index t (0 : Fin 2) * 2000 ≤ (i 0).val ∧ (i 0).val < win0_11.index t (0 : Fin 2) * 2000 + 2000
    omega
  | ⟨1, _⟩ =>
    show win0_11.index t (1 : Fin 2) * 128 ≤ (i 1).val ∧ (i 1).val < win0_11.index t (1 : Fin 2) * 128 + 128
    omega

/-- The output array after the run is `updated`. -/
theorem final (c : Dev nD) : (dats m 0 c).arrAt 11 cfg0.N = updated m c :=
  (dats m 0 c).arrAt_eq_of_cover 11 (updated m c) (fun t _ => flushed_eq m c t) covered

end Cert.KernelIdeal.Blocks

end
-- ==== Proof.RefRun.lean ====
/-
  The reference program's @main as the list of its host operations, and its run.

  The reference is straight-line host code: two scatter-means of edge attributes onto nodes, the concatenation of the
  node features with the two means, a linear layer with ReLU, a second linear layer, a layer normalisation (the mean by
  a row sum divided by 128; the variance by the outlined routine that subtracts the mean, squares, sums and divides by
  128 minus a zero correction, guarded by a select on that divisor being positive), the scale and shift, and the
  residual sum. The outlined routines are written out at their call sites over the buffers of each call. Every weakly
  fair execution of the list terminates with each buffer at the fold of the operations over the launch contents.
-/
import proofs.«117455_j29137058136345_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 84 operations: up to the broadcast of the scale vector. -/
abbrev ops0 : List (HloOp τ sig (Elt F)) :=
  [ StableHlo.nullary main_cst (constant S_ .f32 0x00000000#32),
    StableHlo.unary main_cst main_v0 (broadcastInDim S100000x128 ![] bcast_S_S100000x128 : (⟨S_, .f32⟩ : BufTy).Contents (Elt F) → (⟨S100000x128, .f32⟩ : BufTy).Contents (Elt F)),
    StableHlo.unary main_arg3 main_v1 (broadcastInDim S600000x1 ![0] bcast_S600000_S600000x1_0 : (⟨S600000, .i32⟩ : BufTy).Contents (Elt F) → (⟨S600000x1, .i32⟩ : BufTy).Contents (Elt F)),
    StableHlo.ternary main_v0 main_v1 main_arg1 main_v2 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_0 (constant S_ .f32 0x3F800000#32),
    StableHlo.unary main_cst_0 main_v3 (broadcastInDim S600000 ![] bcast_S_S600000 : (⟨S_, .f32⟩ : BufTy).Contents (Elt F) → (⟨S600000, .f32⟩ : BufTy).Contents (Elt F)),
    StableHlo.nullary main_cst_1 (constant S_ .f32 0x00000000#32),
    StableHlo.unary main_cst_1 main_v4 (broadcastInDim S100000 ![] bcast_S_S100000 : (⟨S_, .f32⟩ : BufTy).Contents (Elt F) → (⟨S100000, .f32⟩ : BufTy).Contents (Elt F)),
    StableHlo.unary main_arg3 main_v5 (broadcastInDim S600000x1 ![0] bcast_S600000_S600000x1_0 : (⟨S600000, .i32⟩ : BufTy).Contents (Elt F) → (⟨S600000x1, .i32⟩ : BufTy).Contents (Elt F)),
    StableHlo.ternary main_v4 main_v5 main_v3 main_v6 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_2 (constant S_ .f32 0x3F800000#32),
    StableHlo.unary main_cst_2 main_v7 (broadcastInDim S100000 ![] bcast_S_S100000 : (⟨S_, .f32⟩ : BufTy).Contents (Elt F) → (⟨S100000, .f32⟩ : BufTy).Contents (Elt F)),
    StableHlo.binary main_v6 main_v7 main_v8 (maximumf : (⟨S100000, .f32⟩ : BufTy).Contents (Elt F) → (⟨S100000, .f32⟩ : BufTy).Contents (Elt F) → (⟨S100000, .f32⟩ : BufTy).Contents (Elt F)),
    StableHlo.unary main_v8 main_v9 (broadcastInDim S100000x1 ![0] bcast_S100000_S100000x1_0 : (⟨S100000, .f32⟩ : BufTy).Contents (Elt F) → (⟨S100000x1, .f32⟩ : BufTy).Contents (Elt F)),
    StableHlo.unary main_v9 main_v10 (broadcastInDim S100000x128 ![0, 1] bcast_S100000x1_S100000x128_0_1 : (⟨S100000x1, .f32⟩ : BufTy).Contents (Elt F) → (⟨S100000x128, .f32⟩ : BufTy).Contents (Elt F)),
    StableHlo.binary main_v2 main_v10 main_v11 (Host.divf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x00000000#32),
    StableHlo.unary main_cst_3 main_v12 (broadcastInDim S100000x128 ![] bcast_S_S100000x128 : (⟨S_, .f32⟩ : BufTy).Contents (Elt F) → (⟨S100000x128, .f32⟩ : BufTy).Contents (Elt F)),
    StableHlo.unary main_arg4 main_v13 (broadcastInDim S300000x1 ![0] bcast_S300000_S300000x1_0 : (⟨S300000, .i32⟩ : BufTy).Contents (Elt F) → (⟨S300000x1, .i32⟩ : BufTy).Contents (Elt F)),
    StableHlo.ternary main_v12 main_v13 main_arg2 main_v14 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)),
    StableHlo.nullary main_cst_4 (constant S_ .f32 0x3F800000#32),
    StableHlo.unary main_cst_4 main_v15 (broadcastInDim S300000 ![] bcast_S_S300000 : (⟨S_, .f32⟩ : BufTy).Contents (Elt F) → (⟨S300000, .f32⟩ : BufTy).Contents (Elt F)),
    StableHlo.nullary main_cst_5 (constant S_ .f32 0x00000000#32),
    StableHlo.unary main_cst_5 main_v16 (broadcastInDim S100000 ![] bcast_S_S100000 : (⟨S_, .f32⟩ : BufTy).Contents (Elt F) → (⟨S100000, .f32⟩ : BufTy).Contents (Elt F)),
    StableHlo.unary main_arg4 main_v17 (broadcastInDim S300000x1 ![0] bcast_S300000_S300000x1_0 : (⟨S300000, .i32⟩ : BufTy).Contents (Elt F) → (⟨S300000x1, .i32⟩ : BufTy).Contents (Elt F)),
    StableHlo.ternary main_v16 main_v17 main_v15 main_v18 ((fun x i u => Host.scatterAdd scatter_S100000_S300000x1_S300000_n_0_0_1 x i u) : (⟨S100000, .f32⟩ : BufTy).Contents (Elt F) → (⟨S300000x1, .i32⟩ : BufTy).Contents (Elt F) → (⟨S300000, .f32⟩ : BufTy).Contents (Elt F) → (⟨S100000, .f32⟩ : BufTy).Contents (Elt F)),
    StableHlo.nullary main_cst_6 (constant S_ .f32 0x3F800000#32),
    StableHlo.unary main_cst_6 main_v19 (broadcastInDim S100000 ![] bcast_S_S100000 : (⟨S_, .f32⟩ : BufTy).Contents (Elt F) → (⟨S100000, .f32⟩ : BufTy).Contents (Elt F)),
    StableHlo.binary main_v18 main_v19 main_v20 (maximumf : (⟨S100000, .f32⟩ : BufTy).Contents (Elt F) → (⟨S100000, .f32⟩ : BufTy).Contents (Elt F) → (⟨S100000, .f32⟩ : BufTy).Contents (Elt F)),
    StableHlo.unary main_v20 main_v21 (broadcastInDim S100000x1 ![0] bcast_S100000_S100000x1_0 : (⟨S100000, .f32⟩ : BufTy).Contents (Elt F) → (⟨S100000x1, .f32⟩ : BufTy).Contents (Elt F)),
    StableHlo.unary main_v21 main_v22 (broadcastInDim S100000x128 ![0, 1] bcast_S100000x1_S100000x128_0_1 : (⟨S100000x1, .f32⟩ : BufTy).Contents (Elt F) → (⟨S100000x128, .f32⟩ : BufTy).Contents (Elt F)),
    StableHlo.binary main_v14 main_v22 main_v23 (Host.divf : (⟨S100000x128, .f32⟩ : BufTy).Contents (Elt F) → (⟨S100000x128, .f32⟩ : BufTy).Contents (Elt F) → (⟨S100000x128, .f32⟩ : BufTy).Contents (Elt F)),
    StableHlo.nary ![main_arg0, main_v11, main_v23] main_v24 (fun u => concatenate S100000x384 1 [⟨S100000x128, u 0⟩, ⟨S100000x128, u 1⟩, ⟨S100000x128, u 2⟩] concatenates_S100000x128_S100000x128_S100000x128_S100000x384_d1),
    StableHlo.binary main_v24 main_arg5 main_v25 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)),
    StableHlo.unary main_arg6 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v27 main_v28 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v28) main_call0.v0 main_call0.v1 maximumf,
    StableHlo.binary main_v29 main_arg7 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v32 main_v33 (addf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x00000000#32),
    StableHlo.binary main_v33 main_cst_7 main_v34 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v34 main_v35 (broadcastInDim S100000x1 ![0] bcast_S100000_S100000x1_0 : (⟨S100000, .f32⟩ : BufTy).Contents (Elt F) → (⟨S100000x1, .f32⟩ : BufTy).Contents (Elt F)),
    StableHlo.nullary main_cst_8 (constant S_ .f32 0x43000000#32),
    StableHlo.unary main_cst_8 main_v36 (broadcastInDim S100000x1 ![] bcast_S_S100000x1 : (⟨S_, .f32⟩ : BufTy).Contents (Elt F) → (⟨S100000x1, .f32⟩ : BufTy).Contents (Elt F)),
    StableHlo.binary main_v35 main_v36 main_v37 (Host.divf : (⟨S100000x1, .f32⟩ : BufTy).Contents (Elt F) → (⟨S100000x1, .f32⟩ : BufTy).Contents (Elt F) → (⟨S100000x1, .f32⟩ : BufTy).Contents (Elt F)),
    StableHlo.nullary main_c (constantI S_ 32 0#32),
    StableHlo.TRef.nullary main_call1.cst (constant S_ .f32 0x00000000#32),
    StableHlo.TRef.binary (.of main_v33) main_call1.cst main_call1.v0 (fun x v => Host.reduceAdd x v reducesTo_S100000x128_S100000_d1 h_S_),
    StableHlo.TRef.unary main_call1.v0 main_call1.v1 (broadcastInDim S100000x1 ![0] bcast_S100000_S100000x1_0),
    StableHlo.TRef.nullary main_call1.cst_0 (constant S_ .f32 0x43000000#32),
    StableHlo.TRef.unary main_call1.cst_0 main_call1.v2 (broadcastInDim S100000x1 ![] bcast_S_S100000x1),
    StableHlo.TRef.binary main_call1.v1 main_call1.v2 main_call1.v3 Host.divf,
    StableHlo.TRef.unary main_call1.v3 main_call1.v4 (broadcastInDim S100000x128 ![0, 1] bcast_S100000x1_S100000x128_0_1),
    StableHlo.TRef.binary (.of main_v33) main_call1.v4 main_call1.v5 subf,
    StableHlo.TRef.binary main_call1.v5 main_call1.v5 main_call1.v6 mulf,
    StableHlo.TRef.unary (.of main_c) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S100000_d1 h_S_),
    StableHlo.TRef.unary main_call1.v9 main_call1.v10 (broadcastInDim S100000x1 ![0] bcast_S100000_S100000x1_0),
    StableHlo.TRef.unary main_call1.v8 main_call1.v11 (broadcastInDim S100000x1 ![] bcast_S_S100000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S100000x1 ![] bcast_S_S100000x1),
    StableHlo.TRef.ternary main_call1.v13 main_call1.v12 main_call1.call0.v1 main_call1.call0.v2 (fun p a b => select (broadcastInDim S100000x1 ![] bcast_S_S100000x1 p) a b),
    StableHlo.unary main_v37 main_v39 (broadcastInDim S100000x128 ![0, 1] bcast_S100000x1_S100000x128_0_1 : (⟨S100000x1, .f32⟩ : BufTy).Contents (Elt F) → (⟨S100000x128, .f32⟩ : BufTy).Contents (Elt F)),
    StableHlo.binary main_v33 main_v39 main_v40 (subf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x3727C5AC#32),
    StableHlo.unary main_cst_9 main_v41 (broadcastInDim S100000x1 ![] bcast_S_S100000x1 : (⟨S_, .f32⟩ : BufTy).Contents (Elt F) → (⟨S100000x1, .f32⟩ : BufTy).Contents (Elt F)),
    StableHlo.binary main_v38 main_v41 main_v42 (addf : (⟨S100000x1, .f32⟩ : BufTy).Contents (Elt F) → (⟨S100000x1, .f32⟩ : BufTy).Contents (Elt F) → (⟨S100000x1, .f32⟩ : BufTy).Contents (Elt F)),
    StableHlo.unary main_v42 main_v43 (Host.rsqrt : (⟨S100000x1, .f32⟩ : BufTy).Contents (Elt F) → (⟨S100000x1, .f32⟩ : BufTy).Contents (Elt F)),
    StableHlo.unary main_v43 main_v44 (broadcastInDim S100000x128 ![0, 1] bcast_S100000x1_S100000x128_0_1 : (⟨S100000x1, .f32⟩ : BufTy).Contents (Elt F) → (⟨S100000x128, .f32⟩ : BufTy).Contents (Elt F)),
    StableHlo.binary main_v40 main_v44 main_v45 (mulf : (⟨S100000x128, .f32⟩ : BufTy).Contents (Elt F) → (⟨S100000x128, .f32⟩ : BufTy).Contents (Elt F) → (⟨S100000x128, .f32⟩ : BufTy).Contents (Elt F)),
    StableHlo.unary main_arg9 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)) ]

/-- The last 5 operations: the scale, the shift and the residual sum. -/
abbrev ops1 : List (HloOp τ sig (Elt F)) :=
  [ StableHlo.binary main_v45 main_v47 main_v48 (mulf : (⟨S100000x128, .f32⟩ : BufTy).Contents (Elt F) → (⟨S100000x128, .f32⟩ : BufTy).Contents (Elt F) → (⟨S100000x128, .f32⟩ : BufTy).Contents (Elt F)),
    StableHlo.unary main_arg10 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)),
    StableHlo.binary main_arg0 main_v51 main_v52 (addf : (⟨S100000x128, .f32⟩ : BufTy).Contents (Elt F) → (⟨S100000x128, .f32⟩ : BufTy).Contents (Elt F) → (⟨S100000x128, .f32⟩ : BufTy).Contents (Elt F)) ]

/-- All 89 operations, in order. -/
abbrev ops : List (HloOp τ sig (Elt F)) := ops0 ++ ops1

set_option maxRecDepth 8192 in
set_option maxHeartbeats 4000000 in
theorem main_part0_eq (c : Dev nD) : main_part0 (F := F) c = seq ops0 := rfl

set_option maxRecDepth 8192 in
theorem main_part1_eq (c : Dev nD) : main_part1 (F := F) c = seq ops1 := rfl

set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub ..⟩

theorem ops1_sub : (ops1 : List (HloOp τ sig (Elt F))).Forall fun op => op.bufs ⊆ tcRefs τ sig :=
  ⟨binary_bufs_sub .., unary_bufs_sub .., unary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- On every device, from any memory with zero counters: every weakly fair execution of @main terminates, and every
    final state has each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's result as one function of its argument arrays, built from named stages.

  The stages follow the reference's own lines: the mean of the attributes of the edges arriving at each node (a
  scatter-add of the attributes over the destination indices, divided by the number of arriving edges, at least one);
  the first linear layer on the three rows side by side, with its ReLU; the second linear layer; the row mean; the row
  variance as the outlined routine computes it (the divisor is 128 minus a correction converted from the integer zero,
  and a select on that divisor being positive guards the quotient); and the normalisation, gain, shift and residual sum.
-/
import proofs.«117455_j29137058136345_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- Per node, the mean of the attributes of the 600000 mesh edges by destination. -/
def meshMean (attr : (⟨S600000x128, .f32⟩ : BufTy).Contents (Elt F)) (dst : (⟨S600000, .i32⟩ : BufTy).Contents (Elt F)) : (⟨S100000x128, .f32⟩ : BufTy).Contents (Elt F) :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 dst) attr)
    (broadcastInDim S100000x128 ![0, 1] bcast_S100000x1_S100000x128_0_1
      (broadcastInDim S100000x1 ![0] bcast_S100000_S100000x1_0
        (maximumf
          (Host.scatterAdd scatter_S100000_S600000x1_S600000_n_0_0_1
            (broadcastInDim S100000 ![] bcast_S_S100000 (constant S_ .f32 0x00000000#32))
            (broadcastInDim S600000x1 ![0] bcast_S600000_S600000x1_0 dst)
            (broadcastInDim S600000 ![] bcast_S_S600000 (constant S_ .f32 0x3F800000#32)))
          (broadcastInDim S100000 ![] bcast_S_S100000 (constant S_ .f32 0x3F800000#32)))))

/-- Per node, the mean of the attributes of the 300000 world edges by destination. -/
def worldMean (attr : (⟨S300000x128, .f32⟩ : BufTy).Contents (Elt F)) (dst : (⟨S300000, .i32⟩ : BufTy).Contents (Elt F)) : (⟨S100000x128, .f32⟩ : BufTy).Contents (Elt F) :=
  Host.divf
    (Host.scatterAdd scatter_S100000x128_S300000x1_S300000x128_1_0_0_1
      (broadcastInDim S100000x128 ![] bcast_S_S100000x128 (constant S_ .f32 0x00000000#32))
      (broadcastInDim S300000x1 ![0] bcast_S300000_S300000x1_0 dst) attr)
    (broadcastInDim S100000x128 ![0, 1] bcast_S100000x1_S100000x128_0_1
      (broadcastInDim S100000x1 ![0] bcast_S100000_S100000x1_0
        (maximumf
          (Host.scatterAdd scatter_S100000_S300000x1_S300000_n_0_0_1
            (broadcastInDim S100000 ![] bcast_S_S100000 (constant S_ .f32 0x00000000#32))
            (broadcastInDim S300000x1 ![0] bcast_S300000_S300000x1_0 dst)
            (broadcastInDim S300000 ![] bcast_S_S300000 (constant S_ .f32 0x3F800000#32)))
          (broadcastInDim S100000 ![] bcast_S_S100000 (constant S_ .f32 0x3F800000#32)))))

/-- A vector of 128 repeated on every row. -/
def biasRows (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- A column repeated over the 128 columns. -/
def colRows (v : (⟨S100000x1, .f32⟩ : BufTy).Contents (Elt F)) : (⟨S100000x128, .f32⟩ : BufTy).Contents (Elt F) :=
  broadcastInDim S100000x128 ![0, 1] bcast_S100000x1_S100000x128_0_1 v

/-- A scalar constant as a column. -/
def splatCol (w : BitVec 32) : (⟨S100000x1, .f32⟩ : BufTy).Contents (Elt F) :=
  broadcastInDim S100000x1 ![] bcast_S_S100000x1 (constant S_ .f32 w)

/-- The sums of the rows, as a column. -/
def rowSum (X : (⟨S100000x128, .f32⟩ : BufTy).Contents (Elt F)) : (⟨S100000x1, .f32⟩ : BufTy).Contents (Elt F) :=
  broadcastInDim S100000x1 ![0] bcast_S100000_S100000x1_0
    (Host.reduceAdd X (constant S_ .f32 0x00000000#32) reducesTo_S100000x128_S100000_d1 h_S_)

/-- The first linear layer on the three rows side by side, with its ReLU. -/
def layer1 (x me wo : (⟨S100000x128, .f32⟩ : BufTy).Contents (Elt F)) (W1 : (⟨S384x128, .f32⟩ : BufTy).Contents (Elt F)) (b1 : (⟨S128, .f32⟩ : BufTy).Contents (Elt F)) : (⟨S100000x128, .f32⟩ : BufTy).Contents (Elt F) :=
  maximumf
    (addf
      (Host.dotGeneral dot_S100000x384_S384x128_S100000x128_1_0_0_1_n_n none
        (concatenate S100000x384 1 [⟨S100000x128, x⟩, ⟨S100000x128, me⟩, ⟨S100000x128, wo⟩]
          concatenates_S100000x128_S100000x128_S100000x128_S100000x384_d1) W1)
      (biasRows b1))
    (broadcastInDim S100000x128 ![] bcast_S_S100000x128 (constant S_ .f32 0x00000000#32))

/-- The second linear layer. -/
def layer2 (a : (⟨S100000x128, .f32⟩ : BufTy).Contents (Elt F)) (W2 : (⟨S128x128, .f32⟩ : BufTy).Contents (Elt F)) (b2 : (⟨S128, .f32⟩ : BufTy).Contents (Elt F)) : (⟨S100000x128, .f32⟩ : BufTy).Contents (Elt F) :=
  addf (Host.dotGeneral dot_S100000x128_S128x128_S100000x128_1_0_0_1_n_n none a W2) (biasRows b2)

/-- The row means, as a column: the row sums divided by 128. -/
def meanCol (H : (⟨S100000x128, .f32⟩ : BufTy).Contents (Elt F)) : (⟨S100000x1, .f32⟩ : BufTy).Contents (Elt F) :=
  Host.divf (rowSum H) (splatCol 0x43000000#32)

/-- The variance routine's divisor: 128 minus the correction converted from the integer zero. -/
def divisor : (⟨S_, .f32⟩ : BufTy).Contents (Elt F) :=
  subf (constant S_ .f32 0x43000000#32) (sitofp .f32 (constantI S_ 32 0#32))

/-- The row variances as the outlined routine computes them, as a column. -/
def varCol (H : (⟨S100000x128, .f32⟩ : BufTy).Contents (Elt F)) : (⟨S100000x1, .f32⟩ : BufTy).Contents (Elt F) :=
  select (broadcastInDim S100000x1 ![] bcast_S_S100000x1 (cmpf .ogt (divisor (F := F)) (constant S_ .f32 0x00000000#32)))
    (Host.divf (rowSum (mulf (subf H (colRows (meanCol H))) (subf H (colRows (meanCol H)))))
      (broadcastInDim S100000x1 ![] bcast_S_S100000x1 (divisor (F := F))))
    (broadcastInDim S100000x1 ![] bcast_S_S100000x1 (id (constant S_ .f32 0x7FC00000#32)))

/-- The normalisation, gain, shift and residual sum over the second layer's output `H`. -/
def finish (x H : (⟨S100000x128, .f32⟩ : BufTy).Contents (Elt F)) (g bt : (⟨S128, .f32⟩ : BufTy).Contents (Elt F)) : (⟨S100000x128, .f32⟩ : BufTy).Contents (Elt F) :=
  addf x
    (addf
      (mulf (mulf (subf H (colRows (meanCol H))) (colRows (Host.rsqrt (addf (varCol H) (splatCol 0x3727C5AC#32)))))
        (biasRows g))
      (biasRows bt))

/-- The reference's result of the node features, the two edge means and the parameters. -/
def result (x me wo : (⟨S100000x128, .f32⟩ : BufTy).Contents (Elt F)) (W1 : (⟨S384x128, .f32⟩ : BufTy).Contents (Elt F)) (b1 : (⟨S128, .f32⟩ : BufTy).Contents (Elt F)) (W2 : (⟨S128x128, .f32⟩ : BufTy).Contents (Elt F))
    (b2 g bt : (⟨S128, .f32⟩ : BufTy).Contents (Elt F)) : (⟨S100000x128, .f32⟩ : BufTy).Contents (Elt F) :=
  finish x (layer2 (layer1 x me wo W1 b1) W2 b2) g bt

end Cert.ReferenceIdeal.RefTerm

end
-- ==== Proof.LibNaryThree.lean ====
/-
  A host line with three operands (a concatenation of three arrays), read after it has run.

  The line's result buffer holds the line's function of the three operands' contents, each read at its own buffer:
  the family of operands indexed by 0, 1, 2 is spelt out as three literal buffers, so that what each of them holds
  after the lines before can go on being rewritten, one buffer at a time.
-/
import Idealize.ShloMosaic.Lib.StableHlo.Run

namespace Idealize.ShloMosaic.StableHlo

variable {τ : Topo} {sig : RefSig} {Val : EltTy → Type} {x a b y : Ref sig .tc}

/-- `nary ![x, a, b] y f` leaves `y` at `f` of the contents of `x`, `a`, `b`, in that order. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.LibNaryThreeSimp.lean ====
/-
  A host line with three operands, read after it has run, in the form a simplifier pass can use.

  The companion statement of `nary3_result`: the same equation with the result buffer's reference kept out of the
  simplifier's index, so that one pass over a long list of host lines rewrites a three-operand line (a concatenation
  of three arrays) like the one- and two-operand lines, and goes on into the three operands.
-/
import Idealize.ShloMosaic.Lib.StableHlo.Run
import proofs.«117455_j29137058136345_2_alg».proof.Proof.LibNaryThree

namespace Idealize.ShloMosaic.StableHlo

variable {τ : Topo} {sig : RefSig} {Val : EltTy → Type} {x a b y : Ref sig .tc}

/-- `nary ![x, a, b] y f` leaves `y` at `f` of the contents of `x`, `a`, `b`, in that order. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- One simplifier pass over a list of host lines that may hold three-operand lines. -/
macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

end Idealize.ShloMosaic.StableHlo
-- ==== Proof.RefValue.lean ====
/-
  The reference's run, read: its result buffer ends at the staged function of the argument arrays.

  The fold of the host lines over the launch contents, read at the result buffer, is the staged function of
  RefTerm.lean applied to the node features, the two edge means of the edge attributes and destinations, and the
  parameters; read at an argument buffer it is the argument as launched, since no line writes an argument.
-/
import proofs.«117455_j29137058136345_2_alg».proof.Proof.RefRun
import proofs.«117455_j29137058136345_2_alg».proof.Proof.RefTerm
import proofs.«117455_j29137058136345_2_alg».proof.Proof.LibNaryThreeSimp

noncomputable section

namespace Cert.ReferenceIdeal.RefValue

open Cert.ReferenceIdeal Cert.ReferenceIdeal.Gen Cert.ReferenceIdeal.RefRun Cert.ReferenceIdeal.RefTerm
open Idealize.ShloMosaic Idealize.ShloMosaic.TcCoe Idealize.SL.Sem Idealize.ShloMosaic.StableHlo

variable {F : FTy → Type} [FloatOps F]

/-- The fold over two lists one after the other is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 16384 in
set_option maxHeartbeats 4000000 in
/-- The fold at the result buffer is the staged function of the arguments. -/
theorem out_eq (V : Valuation τ sig (Elt F)) :
    after ops V (main_v52 : DevRef τ sig)
      = result (V (main_arg0 : DevRef τ sig))
          (meshMean (V (main_arg1 : DevRef τ sig)) (V (main_arg3 : DevRef τ sig)))
          (worldMean (V (main_arg2 : DevRef τ sig)) (V (main_arg4 : DevRef τ sig)))
          (V (main_arg5 : DevRef τ sig)) (V (main_arg6 : DevRef τ sig)) (V (main_arg7 : DevRef τ sig))
          (V (main_arg8 : DevRef τ sig)) (V (main_arg9 : DevRef τ sig)) (V (main_arg10 : DevRef τ sig)) := by
  show after (ops0 ++ ops1) V _ = _
  rw [after_append]
  after_results_simp3
  rfl

set_option maxRecDepth 16384 in
set_option maxHeartbeats 4000000 in
theorem arg0_eq (V : Valuation τ sig (Elt F)) : after ops V (main_arg0 : DevRef τ sig) = V (main_arg0 : DevRef τ sig) := by
  show after (ops0 ++ ops1) V _ = _
  rw [after_append]
  after_results_simp3

set_option maxRecDepth 16384 in
set_option maxHeartbeats 4000000 in
theorem arg1_eq (V : Valuation τ sig (Elt F)) : after ops V (main_arg1 : DevRef τ sig) = V (main_arg1 : DevRef τ sig) := by
  show after (ops0 ++ ops1) V _ = _
  rw [after_append]
  after_results_simp3

set_option maxRecDepth 16384 in
set_option maxHeartbeats 4000000 in
theorem arg2_eq (V : Valuation τ sig (Elt F)) : after ops V (main_arg2 : DevRef τ sig) = V (main_arg2 : DevRef τ sig) := by
  show after (ops0 ++ ops1) V _ = _
  rw [after_append]
  after_results_simp3

set_option maxRecDepth 16384 in
set_option maxHeartbeats 4000000 in
theorem arg3_eq (V : Valuation τ sig (Elt F)) : after ops V (main_arg3 : DevRef τ sig) = V (main_arg3 : DevRef τ sig) := by
  show after (ops0 ++ ops1) V _ = _
  rw [after_append]
  after_results_simp3

set_option maxRecDepth 16384 in
set_option maxHeartbeats 4000000 in
theorem arg4_eq (V : Valuation τ sig (Elt F)) : after ops V (main_arg4 : DevRef τ sig) = V (main_arg4 : DevRef τ sig) := by
  show after (ops0 ++ ops1) V _ = _
  rw [after_append]
  after_results_simp3

set_option maxRecDepth 16384 in
set_option maxHeartbeats 4000000 in
theorem arg5_eq (V : Valuation τ sig (Elt F)) : after ops V (main_arg5 : DevRef τ sig) = V (main_arg5 : DevRef τ sig) := by
  show after (ops0 ++ ops1) V _ = _
  rw [after_append]
  after_results_simp3

set_option maxRecDepth 16384 in
set_option maxHeartbeats 4000000 in
theorem arg6_eq (V : Valuation τ sig (Elt F)) : after ops V (main_arg6 : DevRef τ sig) = V (main_arg6 : DevRef τ sig) := by
  show after (ops0 ++ ops1) V _ = _
  rw [after_append]
  after_results_simp3

set_option maxRecDepth 16384 in
set_option maxHeartbeats 4000000 in
theorem arg7_eq (V : Valuation τ sig (Elt F)) : after ops V (main_arg7 : DevRef τ sig) = V (main_arg7 : DevRef τ sig) := by
  show after (ops0 ++ ops1) V _ = _
  rw [after_append]
  after_results_simp3

set_option maxRecDepth 16384 in
set_option maxHeartbeats 4000000 in
theorem arg8_eq (V : Valuation τ sig (Elt F)) : after ops V (main_arg8 : DevRef τ sig) = V (main_arg8 : DevRef τ sig) := by
  show after (ops0 ++ ops1) V _ = _
  rw [after_append]
  after_results_simp3

set_option maxRecDepth 16384 in
set_option maxHeartbeats 4000000 in
theorem arg9_eq (V : Valuation τ sig (Elt F)) : after ops V (main_arg9 : DevRef τ sig) = V (main_arg9 : DevRef τ sig) := by
  show after (ops0 ++ ops1) V _ = _
  rw [after_append]
  after_results_simp3

set_option maxRecDepth 16384 in
set_option maxHeartbeats 4000000 in
theorem arg10_eq (V : Valuation τ sig (Elt F)) : after ops V (main_arg10 : DevRef τ sig) = V (main_arg10 : DevRef τ sig) := by
  show after (ops0 ++ ops1) V _ = _
  rw [after_append]
  after_results_simp3

/-- On every device, from any memory with zero counters: every weakly fair execution of the reference terminates with
    its result at the staged function of the launch arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
        = result (m ((c.tc : Thread nD τ).loc main_arg0)) (meshMean (m ((c.tc : Thread nD τ).loc main_arg1)) (m ((c.tc : Thread nD τ).loc main_arg3))) (worldMean (m ((c.tc : Thread nD τ).loc main_arg2)) (m ((c.tc : Thread nD τ).loc main_arg4)))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v52).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_fold m ρ)

end Cert.ReferenceIdeal.RefValue

end
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.RefRead.lean ====
/-
  The reference's staged result read at an entry, on the extended reals: the node update of Spec.lean.

  Each stage is read at an index from its operands at an index: a broadcast along named axes reads the operand at the
  coordinates the axes name; the host's sum along a row is its initial value, zero, plus the sum of the row's 128 entries;
  the host's matrix product is the sum of products over the contracted positions; three matrices side by side read, in
  each stretch of 128 columns, the matrix that stretch came from, so that the contraction over 384 positions is the sum
  of the three contractions over 128; and the variance routine's divisor, 128 minus the real number the integer zero
  converts to, is 128, which is positive, so that its guarding select takes the quotient.
-/
import proofs.«117455_j29137058136345_2_alg».proof.Proof.RefTerm
import proofs.«117455_j29137058136345_2_alg».proof.Proof.Spec
import proofs.«117455_j29137058136345_2_alg».proof.Proof.LibConcatRead
import proofs.«117455_j29137058136345_2_alg».proof.Proof.LibPlainDotGeneral
import proofs.«117455_j29137058136345_2_alg».proof.Proof.LibLaneSum
import Idealize.ShloMosaic.PureOps.Ideal.Laws
import Idealize.ShloMosaic.Lib.ValueLayout
import Idealize.ShloMosaic.Lib.Pipeline.Value

open scoped BigOperators

noncomputable section

namespace Cert.ReferenceIdeal.RefRead

open Cert.ReferenceIdeal Cert.ReferenceIdeal.Gen Cert.ReferenceIdeal.RefTerm Cert.NodeUpdate
open Idealize.ShloMosaic Idealize.ShloMosaic.ValueIdx

/-- The pattern of `128.0` denotes the real number 128. -/
theorem ofBits_128 : Ideal.ofBits .f32 0x43000000#32 = ((128 : ℝ) : EReal) := by
  simp [Ideal.ofBits, Ideal.ieee, -EReal.coe_mul]; norm_num

theorem biasRows_apply (b : FVec Ideal S128 .f32) (r : Fin 100000) (q : Fin 128) : biasRows (F := Ideal) b (ix2 r q) = b (ix1 q) := by
  unfold biasRows
  refine (broadcastInDim_apply _ _ _ (ix2 r q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

theorem colRows_apply (v : FVec Ideal S100000x1 .f32) (r : Fin 100000) (q : Fin 128) :
    colRows (F := Ideal) v (ix2 r q) = v (ix2 r (0 : Fin 1)) := by
  unfold colRows
  refine broadcastInDim_apply _ _ _ (ix2 r q) (ix2 r (0 : Fin 1)) fun a => ?_
  match a with
  | ⟨0, _⟩ => rfl
  | ⟨1, _⟩ => rfl

theorem splat_apply {α : Type} {t : Shape} (h : S_.BroadcastsInDim t (![] : Fin 0 → Fin t.rank)) (v : S_.Idx → α) (j : t.Idx) :
    broadcastInDim t ![] h v j = v ix0 :=
  broadcastInDim_apply _ _ _ j ix0 fun a => a.elim0

theorem splatCol_apply (w : BitVec 32) (r : Fin 100000) (u : Fin 1) : splatCol (F := Ideal) w (ix2 r u) = Ideal.ofBits .f32 w := by
  unfold splatCol
  exact splat_apply _ _ _

theorem rowSum_apply (X : FVec Ideal S100000x128 .f32) (r : Fin 100000) (u : Fin 1) :
    rowSum (F := Ideal) X (ix2 r u) = ∑ c : Fin 128, X (ix2 r c) := by
  unfold rowSum
  refine (broadcastInDim_apply _ _ _ (ix2 r u) (ix1 r) fun a => ?_).trans ?_
  · match a with
    | ⟨0, _⟩ => rfl
  · have hR : S100000x128.Reduces [1] S100000 := by decide
    show Ideal.hostReduceAdd reducesTo_S100000x128_S100000_d1 X (Ideal.ofBits .f32 0x00000000#32) (ix1 r) = _
    rw [Ideal.hostReduceAdd_single _ hR, Ideal.ofBits_zero_f32, zero_add]
    exact Finset.sum_congr rfl fun c _ => congrArg X (reduces_rows_lift hR r c)

theorem layer1_apply (x me wo : FVec Ideal S100000x128 .f32) (W1 : FVec Ideal S384x128 .f32) (b1 : FVec Ideal S128 .f32) (r : Fin 100000) (k : Fin 128) :
    layer1 (F := Ideal) x me wo W1 b1 (ix2 r k)
      = hiddenUnit (Ideal.ofBits .f32 0x00000000#32) (row x r) (row me r) (row wo r) (top W1) (mid W1) (bot W1) (vec b1) k := by
  unfold layer1 hiddenUnit
  rw [maximumf_apply, addf_apply, biasRows_apply, splat_apply, constant_apply]
  refine congrArg (fun t => max (t + b1 (ix1 k)) (Ideal.ofBits .f32 0x00000000#32)) ?_
  refine (dotGeneral_plain_apply _ none _ W1 r k).trans ?_
  rw [sum_three_stretches]
  refine congrArg₂ (· + ·) (congrArg₂ (· + ·) ?_ ?_) ?_
  · exact Finset.sum_congr rfl fun c _ => congrArg (· * _) (concat3_cols_first x me wo _ r c _ rfl)
  · exact Finset.sum_congr rfl fun c _ => congrArg (· * _) (concat3_cols_second x me wo _ r c _ rfl)
  · exact Finset.sum_congr rfl fun c _ => congrArg (· * _) (concat3_cols_third x me wo _ r c _ rfl)

theorem layer2_apply (a : FVec Ideal S100000x128 .f32) (W2 : FVec Ideal S128x128 .f32) (b2 : FVec Ideal S128 .f32) (r : Fin 100000) (q : Fin 128) :
    layer2 (F := Ideal) a W2 b2 (ix2 r q) = second (row a r) (mat W2) (vec b2) q := by
  unfold layer2 second
  rw [addf_apply, biasRows_apply]
  exact congrArg (· + b2 (ix1 q)) (dotGeneral_plain_apply _ none a W2 r q)

theorem meanCol_apply (H : FVec Ideal S100000x128 .f32) (r : Fin 100000) (u : Fin 1) :
    meanCol (F := Ideal) H (ix2 r u) = Ideal.div (∑ c : Fin 128, H (ix2 r c)) (Ideal.ofBits .f32 0x43000000#32) := by
  unfold meanCol
  show Ideal.div (rowSum (F := Ideal) H (ix2 r u)) (splatCol (F := Ideal) 0x43000000#32 (ix2 r u)) = _
  rw [rowSum_apply, splatCol_apply]

/-- The variance routine's divisor is 128. -/
theorem divisor_apply (j : S_.Idx) : divisor (F := Ideal) j = Ideal.ofBits .f32 0x43000000#32 := by
  show Ideal.ofBits .f32 0x43000000#32 - (((0#32 : BitVec 32).toInt : ℝ) : EReal) = _
  simp

/-- The guard of the variance routine's select is on: its divisor, 128, is above zero. -/
theorem guard_apply (j : S_.Idx) :
    cmpf (F := Ideal) .ogt (divisor (F := Ideal)) (constant S_ .f32 0x00000000#32) j = 1#1 := by
  show Ideal.cmp .ogt (divisor (F := Ideal) j) (Ideal.ofBits .f32 0x00000000#32) = 1#1
  rw [divisor_apply, Ideal.ofBits_zero_f32, ofBits_128]
  have h : (0 : EReal) < ((128 : ℝ) : EReal) := EReal.coe_pos.mpr (by norm_num)
  simp [Ideal.cmp, h]

theorem centred_apply (H : FVec Ideal S100000x128 .f32) (r : Fin 100000) (c : Fin 128) :
    subf (F := Ideal) H (colRows (F := Ideal) (meanCol (F := Ideal) H)) (ix2 r c) = centred (Ideal.ofBits .f32 0x43000000#32) (row H r) c := by
  rw [subf_apply, colRows_apply, meanCol_apply]
  rfl

theorem varCol_apply (H : FVec Ideal S100000x128 .f32) (r : Fin 100000) (u : Fin 1) :
    varCol (F := Ideal) H (ix2 r u)
      = Ideal.div (∑ c : Fin 128, centred (Ideal.ofBits .f32 0x43000000#32) (row H r) c
          * centred (Ideal.ofBits .f32 0x43000000#32) (row H r) c) (Ideal.ofBits .f32 0x43000000#32) := by
  unfold varCol
  rw [select_apply, splat_apply, splat_apply, guard_apply, select_one]
  show Ideal.div (rowSum (F := Ideal) _ (ix2 r u)) (broadcastInDim S100000x1 ![] bcast_S_S100000x1 (divisor (F := Ideal)) (ix2 r u)) = _
  rw [rowSum_apply, splat_apply, divisor_apply]
  refine congrArg (Ideal.div · _) (Finset.sum_congr rfl fun c _ => ?_)
  rw [mulf_apply, centred_apply]

theorem finish_apply (x H : FVec Ideal S100000x128 .f32) (g bt : FVec Ideal S128 .f32) (r : Fin 100000) (q : Fin 128) :
    finish (F := Ideal) x H g bt (ix2 r q)
      = row x r q + normed (Ideal.ofBits .f32 0x43000000#32) (Ideal.ofBits .f32 0x3727C5AC#32) (row H r) (vec g) (vec bt) q := by
  unfold finish normed
  rw [addf_apply, addf_apply, mulf_apply, mulf_apply, centred_apply, colRows_apply, biasRows_apply, biasRows_apply]
  show _ + (_ * Ideal.rsqrt (varCol (F := Ideal) H (ix2 r 0) + splatCol (F := Ideal) 0x3727C5AC#32 (ix2 r 0)) * _ + _) = _
  rw [varCol_apply, splatCol_apply]
  rfl

/-- The reference's result at `(r, q)` is the node update of row `r`. -/
theorem result_apply (x me wo : FVec Ideal S100000x128 .f32) (W1 : FVec Ideal S384x128 .f32) (b1 : FVec Ideal S128 .f32) (W2 : FVec Ideal S128x128 .f32)
    (b2 g bt : FVec Ideal S128 .f32) (r : Fin 100000) (q : Fin 128) :
    result (F := Ideal) x me wo W1 b1 W2 b2 g bt (ix2 r q)
      = node (Ideal.ofBits .f32 0x00000000#32) (Ideal.ofBits .f32 0x43000000#32) (Ideal.ofBits .f32 0x3727C5AC#32)
          (row x r) (row me r) (row wo r) (top W1) (mid W1) (bot W1) (vec b1) (mat W2) (vec b2) (vec g) (vec bt) q := by
  unfold result node
  rw [finish_apply]
  refine congrArg (fun h => row x r q + normed _ _ h (vec g) (vec bt) q) ?_
  funext q'
  show layer2 (F := Ideal) _ W2 b2 (ix2 r q') = _
  rw [layer2_apply]
  refine congrArg (fun a => second a (mat W2) (vec b2) q') ?_
  funext k
  exact layer1_apply x me wo W1 b1 r k

end Cert.ReferenceIdeal.RefRead

end
-- ==== Proof.Bridge.lean ====
/-
  The two programs compute one function.

  The kernel's program prepares, on the host, the two edge means and the three blocks of 128 rows of the first weight
  matrix, and its grid writes the node update of every row (KernelArray.lean). The reference computes the same two edge
  means, by the same host lines, and then the node update of every row with the first layer taken on the three rows side
  by side against the whole 384-row matrix (RefRead.lean). Block `k` of the weight matrix is its rows 128·k … 128·k + 127,
  so the two results are the same array, entry by entry.
-/
import proofs.«117455_j29137058136345_2_alg».proof.Proof.KernelArray
import proofs.«117455_j29137058136345_2_alg».proof.Proof.RefValue
import proofs.«117455_j29137058136345_2_alg».proof.Proof.RefRead
import proofs.«117455_j29137058136345_2_alg».proof.Defs
import proofs.«117455_j29137058136345_2_alg».proof.Proof.Gen.Kernel.Frame
import proofs.«117455_j29137058136345_2_alg».proof.Proof.Gen.Pre_finite_inputs
import Idealize.ShloMosaic.Lib.StableHlo.Run
import Idealize.ShloMosaic.Lib.ValueLayout

noncomputable section

namespace Cert.Bridge

open Cert.KernelIdeal Cert.KernelIdeal.Gen Cert.NodeUpdate
open Idealize.ShloMosaic Idealize.ShloMosaic.TcCoe Idealize.ShloMosaic.ValueIdx Idealize.SL.Sem

variable (m : (ℓ : Loc nD τ sig) → Buf (Elt Ideal) ℓ)

set_option maxRecDepth 16384 in
/-- The first block of the weight matrix, as the region finds it: rows 0 … 127. -/
theorem block_top (c : Dev nD) : mat (V m c main_v24 : S128x128.Idx → EReal) = top (m ((c : Thread nD τ).loc main_arg5)) := by
  have e : (V m c main_v24 : S128x128.Idx → EReal)
      = extractStridedSlice S128x128 ![0, 0] (m ((c : Thread nD τ).loc main_arg5)) slices_S384x128_S128x128_0_0 := by
    dsimp only [Gen.V, Gen.hostOps0]; after_results
  funext a b
  unfold mat top
  rw [e]
  exact slice2_axis0_apply 0 _ _ a b ⟨a.val, by omega⟩ (Nat.zero_add _).symm

set_option maxRecDepth 16384 in
/-- The second block: rows 128 … 255. -/
theorem block_mid (c : Dev nD) : mat (V m c main_v25 : S128x128.Idx → EReal) = mid (m ((c : Thread nD τ).loc main_arg5)) := by
  have e : (V m c main_v25 : S128x128.Idx → EReal)
      = extractStridedSlice S128x128 ![128, 0] (m ((c : Thread nD τ).loc main_arg5)) slices_S384x128_S128x128_128_0 := by
    dsimp only [Gen.V, Gen.hostOps0]; after_results
  funext a b
  unfold mat mid
  rw [e]
  exact slice2_axis0_apply 128 _ _ a b ⟨128 + a.val, by omega⟩ rfl

set_option maxRecDepth 16384 in
/-- The third block: rows 256 … 383. -/
theorem block_bot (c : Dev nD) : mat (V m c main_v26 : S128x128.Idx → EReal) = bot (m ((c : Thread nD τ).loc main_arg5)) := by
  have e : (V m c main_v26 : S128x128.Idx → EReal)
      = extractStridedSlice S128x128 ![256, 0] (m ((c : Thread nD τ).loc main_arg5)) slices_S384x128_S128x128_256_0 := by
    dsimp only [Gen.V, Gen.hostOps0]; after_results
  funext a b
  unfold mat bot
  rw [e]
  exact slice2_axis0_apply 256 _ _ a b ⟨256 + a.val, by omega⟩ rfl

set_option maxRecDepth 16384 in
set_option maxHeartbeats 4000000 in
/-- The mesh-edge mean the region finds is the reference's function of the same edge attributes and destinations. -/
theorem mesh_eq (c : Dev nD) :
    (V m c main_v11 : S100000x128.Idx → EReal) = Cert.ReferenceIdeal.RefTerm.meshMean (F := Ideal) (m ((c : Thread nD τ).loc main_arg1)) (m ((c : Thread nD τ).loc main_arg3)) := by
  dsimp only [Gen.V, Gen.hostOps0]; after_results; rfl

set_option maxRecDepth 16384 in
set_option maxHeartbeats 4000000 in
/-- The world-edge mean likewise. -/
theorem world_eq (c : Dev nD) :
    (V m c main_v23 : S100000x128.Idx → EReal) = Cert.ReferenceIdeal.RefTerm.worldMean (F := Ideal) (m ((c : Thread nD τ).loc main_arg2)) (m ((c : Thread nD τ).loc main_arg4)) := by
  dsimp only [Gen.V, Gen.hostOps0]; after_results; rfl

/-- The kernel's output array is the reference's staged result of the same arguments. -/
theorem updated_eq_result (c : Dev nD) :
    Cert.KernelIdeal.Blocks.updated m c
      = Cert.ReferenceIdeal.RefTerm.result (F := Ideal) (m ((c : Thread nD τ).loc main_arg0))
          (Cert.ReferenceIdeal.RefTerm.meshMean (F := Ideal) (m ((c : Thread nD τ).loc main_arg1)) (m ((c : Thread nD τ).loc main_arg3)))
          (Cert.ReferenceIdeal.RefTerm.worldMean (F := Ideal) (m ((c : Thread nD τ).loc main_arg2)) (m ((c : Thread nD τ).loc main_arg4)))
          (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨r, q, rfl⟩ : ∃ (r : Fin 100000) (q : Fin 128), i = ix2 r q := ⟨i 0, i 1, eq_ix2 i⟩
  rw [Cert.ReferenceIdeal.RefRead.result_apply]
  unfold Cert.KernelIdeal.Blocks.updated
  rw [nodes_apply, block_top, block_mid, block_bot, mesh_eq, world_eq, V_main_arg0, V_main_arg6, V_main_arg7, V_main_arg8,
    V_main_arg9, V_main_arg10]

end Cert.Bridge

/-! ## The claims -/

namespace Cert.Proof.Claims

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped: it terminates, nothing faults, its arguments end as launched. -/
theorem frame_ri : Cert.frame_ReferenceIdeal := fun m ρ _ =>
  (θ_run Cert.ReferenceIdeal.defs _ _).mono (fun _ h c => (h c).2) (Cert.ReferenceIdeal.RefValue.run (F := Ideal) m ρ)

/-- The idealisation rewrote no operation: nothing to preserve. -/
theorem preserves : Cert.preserves_Kernel_KernelIdeal := trivial

/-- From memories agreeing on the arguments both programs end with the node update of every row of the same arrays:
    the kernel's grid writes it block by block, the reference computes it whole. -/
theorem algebraic : Cert.algebraic_KernelIdeal_ReferenceIdeal := by
  intro m ρ m' ρ' _ hagree
  refine ⟨fun c => Cert.KernelIdeal.Blocks.updated m c, ?_, ?_⟩
  · exact (θ_run Cert.KernelIdeal.defs _ _).mono
      (fun r h c => ⟨(h c).1.trans (Cert.KernelIdeal.Blocks.final m c), (h c).2⟩)
      (Cert.KernelIdeal.Value.run_blocks m ρ)
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]
    exact (Cert.Bridge.updated_eq_result m c).symm

end Cert.Proof.Claims

end
-- ==== Proof.lean ====
/- The proof of `Cert.Claim`: a node update of a graph network — the means of the incoming edges' attributes, two
   linear layers with a ReLU between them, a layer normalisation and a residual sum — computed by a kernel over blocks of
   2000 nodes, against the same update computed whole on the host.

   The mathematics, module by module. Proof/Spec.lean states the update of one node as a function of its three rows of
   128 features and of the parameters, and the one law the comparison needs: a sum over 384 positions is the sum over
   its three stretches of 128 (the reference multiplies the three rows side by side by the whole first weight matrix,
   the kernel multiplies each row by its block of the matrix and adds the three products). Proof/KernelPayload.lean reads
   one stored block of the kernel entry by entry as that function of the block's rows; Proof/KernelArray.lean carries
   the 50 blocks to the whole output array. Proof/RefRun.lean lists the reference's host operations and runs them;
   Proof/RefTerm.lean names the stages of its result, Proof/RefValue.lean shows the run ends at them, and
   Proof/RefRead.lean reads the stages entry by entry as the same function — the variance routine's divisor, 128 minus
   the conversion of the integer zero, is 128 and is positive, so its guarding select takes the quotient.
   Proof/Bridge.lean identifies the arrays the kernel's grid finds (the two edge means, computed by the same host lines
   in both programs, and the three blocks of the weight matrix) with the reference's, and states the claims. No
   finiteness is used: sums of extended reals may be regrouped freely, and every other operation is the same on both
   sides. -/
import proofs.«117455_j29137058136345_2_alg».proof.Defs
import proofs.«117455_j29137058136345_2_alg».proof.Proof.Bridge
import proofs.«117455_j29137058136345_2_alg».proof.Proof.Gen.Kernel
import proofs.«117455_j29137058136345_2_alg».proof.Proof.Gen.Kernel.Skeleton
import proofs.«117455_j29137058136345_2_alg».proof.Proof.Gen.Kernel.Launch
import proofs.«117455_j29137058136345_2_alg».proof.Proof.Gen.Kernel.Points
import proofs.«117455_j29137058136345_2_alg».proof.Proof.Gen.Kernel.Frame
import proofs.«117455_j29137058136345_2_alg».proof.Proof.Gen.KernelIdeal
import proofs.«117455_j29137058136345_2_alg».proof.Proof.Gen.KernelIdeal.Skeleton
import proofs.«117455_j29137058136345_2_alg».proof.Proof.Gen.KernelIdeal.Launch
import proofs.«117455_j29137058136345_2_alg».proof.Proof.Gen.KernelIdeal.Points
import proofs.«117455_j29137058136345_2_alg».proof.Proof.Gen.KernelIdeal.Frame
import proofs.«117455_j29137058136345_2_alg».proof.Proof.Gen.KernelIdeal.Value
import proofs.«117455_j29137058136345_2_alg».proof.Proof.Gen.ReferenceIdeal
import proofs.«117455_j29137058136345_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
